-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i1⟩
  | .hbm, ⟨8, _⟩ => ⟨S32x2048x2048, .i32⟩
  | .hbm, ⟨9, _⟩ => ⟨S32x2048x64, .f32⟩
  | .hbm, ⟨10, _⟩ => ⟨S32x2048x2048, .f32⟩
  | .hbm, ⟨11, _⟩ => ⟨S2x16x2048x64, .f32⟩
  | .hbm, ⟨12, _⟩ => ⟨S2x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x2048, .f32⟩
  | .local _ .vmem, ⟨11, _⟩ => ⟨S1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1024x2048 : S1024x2048.ShapeCasts S1x1024x2048
  shapeCasts_S1024x64_S1x1024x64 : S1024x64.ShapeCasts S1x1024x64
  shapeCasts_S32x2048x64_S2x16x2048x64 : S32x2048x64.ShapeCasts S2x16x2048x64
  shapeCasts_S32x2048x2048_S2x16x2048x2048 : S32x2048x2048.ShapeCasts S2x16x2048x2048
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S32x2048x2048.size a
  hwx0_3 : ∀ i : grid0.Coords, EltTy.bits .i32 = 32 ∨ (Rect.block (s := S32x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S32x2048x64.size a
  hwx0_4 : ∀ i : grid0.Coords, EltTy.bits .f32 = 32 ∨ (Rect.block (s := S32x2048x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S32x2048x2048.size a
  hwx0_5 : ∀ i : grid0.Coords, EltTy.bits .f32 = 32 ∨ (Rect.block (s := S32x2048x2048) S1x1024x2048.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Masked scaled-dot-product attention, one query row at a time, on the extended reals.

  For a query row `q : Fin 64 → EReal`, the key rows `keys c`, the value rows `vals c` and a mask row `msk` over
  the 2048 key positions:

      score c = if msk c then −10⁹ else Σ_d (q d · 1/8) · keys c d
      top     = the maximum of the scores, folded from −∞
      w c     = exp (score c − top)
      prob c  = w c / Σ_c' w c'
      ctx d   = Σ_c prob c · vals c d

  The same row is also written with the scale applied after the contraction, as a quotient by √64; the two scores
  are one extended real because multiplying by the nonnegative real 1/8 distributes over any sum of extended reals
  and the product of extended reals is commutative and associative.
-/
import Idealize.ShloMosaic.PureOps.Ideal
import Idealize.ShloMosaic.PureOps.Ideal.Laws
import Idealize.ShloMosaic.Lib.ValueIdx

noncomputable section

open scoped BigOperators

namespace Cert.Softmax

open Idealize.ShloMosaic Idealize.ShloMosaic.ValueIdx

/-- The softmax scale 1/√64 as the kernel spells it: the f32 word of 0.125. -/
def scaleC : EReal := Ideal.ofBits .f32 0x3E000000#32
/-- The fill of a masked position: the f32 word of −10⁹. -/
def negBig : EReal := Ideal.ofBits .f32 0xCE6E6B28#32
/-- The start of the running maximum: the f32 word of −∞. -/
def negInf : EReal := Ideal.ofBits .f32 0xFF800000#32

theorem scaleC_eq : scaleC = ((1 / 8 : ℝ) : EReal) := by
  unfold scaleC; simp [Ideal.ofBits, Ideal.ieee, -EReal.coe_mul]; norm_num

theorem negInf_eq : negInf = ⊥ := by
  unfold negInf; simp [Ideal.ofBits, Ideal.ieee]

/-- The maximum with −∞ is the other operand. -/
theorem max_negInf (x : EReal) : max negInf x = x := by rw [negInf_eq]; exact max_eq_right bot_le

/-- The f32 word of 64 is the real 64, whose square root is 8. -/
theorem sqrt_64 : Ideal.sqrt (Ideal.ofBits .f32 0x42800000#32) = ((8 : ℝ) : EReal) := by
  have h64 : Ideal.ofBits .f32 0x42800000#32 = ((64 : ℝ) : EReal) := by
    simp [Ideal.ofBits, Ideal.ieee, -EReal.coe_mul]; norm_num
  rw [h64, Ideal.sqrt_coe, if_neg (by norm_num)]
  congr 1
  rw [show (64 : ℝ) = 8 ^ 2 by norm_num]
  exact Real.sqrt_sq (by norm_num)

/-- A sum of extended reals times a nonnegative real is the sum of the products. -/
theorem sum_mul_coe_nonneg {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- Scaling after the contraction, as a quotient by √64, is scaling the query row by 1/8 before it. -/
theorem scale_after_eq (q k : Fin 64 → EReal) :
    Ideal.div (∑ d : Fin 64, q d * k d) (Ideal.sqrt (Ideal.ofBits .f32 0x42800000#32))
      = ∑ d : Fin 64, (q d * scaleC) * k d := by
  rw [sqrt_64, Ideal.div_coe (by norm_num : (8 : ℝ) ≠ 0), scaleC_eq, sum_mul_coe_nonneg _ _ _ (by norm_num)]
  refine Finset.sum_congr rfl fun d _ => ?_
  rw [mul_assoc, mul_comm (k d), ← mul_assoc]

/-! ## One row -/

section Row

variable (q : Fin 64 → EReal) (keys : Fin 2048 → Fin 64 → EReal) (msk : Fin 2048 → BitVec 1)

/-- The masked, scaled score of the row against key position `c`. -/
def score (c : Fin 2048) : EReal :=
  Scalar.select (msk c) negBig (∑ d : Fin 64, (q d * scaleC) * keys c d)

/-- The row's largest score, folded from −∞. -/
def top : EReal := (Finset.univ : Finset (Fin 2048)).fold max negInf (score q keys msk)

/-- The unnormalized weight of key position `c`. -/
def weight (c : Fin 2048) : EReal := Ideal.exp (score q keys msk c - top q keys msk)

/-- The row's attention probability at key position `c`. -/
def prob (c : Fin 2048) : EReal := Ideal.div (weight q keys msk c) (∑ c' : Fin 2048, weight q keys msk c')

/-- The row's context vector: the probabilities against the value rows. -/
def ctx (vals : Fin 2048 → Fin 64 → EReal) (d : Fin 64) : EReal := ∑ c : Fin 2048, prob q keys msk c * vals c d

end Row

/-! ## The whole arrays, heads flattened: [32, 2048, ·] -/

abbrev Sq3 : Shape := ⟨3, ![32, 2048, 64]⟩
abbrev Sm3 : Shape := ⟨3, ![32, 2048, 2048]⟩

/-- The attention probabilities of every head `g`, query position `r` and key position `c`. -/
def attn3 (Q K : Sq3.Idx → EReal) (M : Sm3.Idx → BitVec 1) : Sm3.Idx → EReal := fun i =>
  prob (fun d => Q (ix3 (i 0) (i 1) d)) (fun c d => K (ix3 (i 0) c d)) (fun c => M (ix3 (i 0) (i 1) c)) (i 2)

/-- The context vectors of every head and query position. -/
def ctx3 (Q K V : Sq3.Idx → EReal) (M : Sm3.Idx → BitVec 1) : Sq3.Idx → EReal := fun i =>
  ctx (fun d => Q (ix3 (i 0) (i 1) d)) (fun c d => K (ix3 (i 0) c d)) (fun c => M (ix3 (i 0) (i 1) c))
    (fun c d => V (ix3 (i 0) c d)) (i 2)

end Cert.Softmax

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Payload.lean ====
/-
  What the kernel body stores, read at an index.

  The body works on one head's block: `x0` a [1, 1024, 64] block of query rows, `x1` the head's [1, 2048, 64] key
  rows, `x2` its [1, 2048, 64] value rows and `x3` the [1, 1024, 2048] block of the mask as 32-bit words. Its
  first store is, at (row r, key position c), the attention probability of the row made of query row r, the keys
  and the mask row r (a word is a masked position when it is not zero); its second store is that row's context
  vector. The softmax over a [1024, 2048] matrix is read first for any matrix: the row maximum and the row sum
  are kept as columns and broadcast back along the rows.
-/
import proofs.«129661_j22874995818674_2_alg».proof.Proof.Gen.KernelIdeal.Skeleton
import proofs.«129661_j22874995818674_2_alg».proof.Proof.Softmax
import proofs.«129661_j22874995818674_2_alg».proof.Proof.LibColumn
import proofs.«129661_j22874995818674_2_alg».proof.Proof.LibRowsDot
import proofs.«129661_j22874995818674_2_alg».proof.Proof.LibMatDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Softmax

/-! ## The softmax of the rows of a [1024, 2048] matrix -/

/-- Row `r`'s maximum, folded from −∞. -/
def rowTop (s : FVec Ideal S1024x2048 .f32) (r : Fin 1024) : EReal :=
  (Finset.univ : Finset (Fin 2048)).fold max negInf (fun k => s (ix2 r k))

/-- Inserting column `k` into the row index `r` is the matrix index (r, k). -/
theorem lift_row (h : S1024x2048.Reduces [1] S1024) (r : Fin 1024) (k : Fin 2048) : h.lift (ix1 r) k = ix2 r k :=
  funext fun a => Fin.ext (by match a with | ⟨0, _⟩ => rfl | ⟨1, _⟩ => rfl)

/-- The maximum reduction along the rows, at row `r`. -/
theorem rowMax_apply (s : FVec Ideal S1024x2048 .f32) (hφ : FKind.Formats .f32)
    (hacc : (0xFF800000#32 : BitVec 32) = FKind.maximumf.neutral .f32 hφ) (r : Fin 1024) :
    multiReduction .maximumf [1] S1024 s 0xFF800000#32 reduces_S1024x2048_S1024 hφ hacc (ix1 r) = rowTop s r := by
  refine (Ideal.multiReduction_maximumf_single s _ reduces_S1024x2048_S1024 hφ hacc (ix1 r)).trans ?_
  unfold rowTop negInf
  refine congrArg (fun f => Finset.fold max _ f Finset.univ) (funext fun k => ?_)
  exact congrArg s (lift_row _ r k)

/-- The row maxima kept as a column and broadcast along the rows. -/
def topCol (s : FVec Ideal S1024x2048 .f32) : FVec Ideal S1024x2048 .f32 :=
  broadcastTo S1024x2048 (shapeCast S1024x1 (multiReduction .maximumf [1] S1024 s 0xFF800000#32 reduces_S1024x2048_S1024 (.inl rfl) rfl) shapeCasts_S1024_S1024x1) broadcasts_S1024x1_S1024x2048

/-- The unnormalized weights: the exponential of each entry less its row's maximum. -/
def weights (s : FVec Ideal S1024x2048 .f32) : FVec Ideal S1024x2048 .f32 := exp (subf s (topCol s))

/-- The row sums kept as a column and broadcast along the rows. -/
def sumCol (e : FVec Ideal S1024x2048 .f32) : FVec Ideal S1024x2048 .f32 :=
  broadcastTo S1024x2048 (shapeCast S1024x1 (multiReduction .add [1] S1024 e 0x00000000#32 reduces_S1024x2048_S1024 (.inl rfl) rfl) shapeCasts_S1024_S1024x1) broadcasts_S1024x1_S1024x2048

/-- The rows' softmax. -/
def softRows (s : FVec Ideal S1024x2048 .f32) : FVec Ideal S1024x2048 .f32 := divf (weights s) (sumCol (weights s))

theorem topCol_apply (s : FVec Ideal S1024x2048 .f32) (r : Fin 1024) (c : Fin 2048) : topCol s (ix2 r c) = rowTop s r := by
  unfold topCol
  rw [broadcastTo_a1_ab_apply, shapeCast_a_a1_apply]
  exact rowMax_apply s _ _ r

theorem weights_apply (s : FVec Ideal S1024x2048 .f32) (r : Fin 1024) (c : Fin 2048) :
    weights s (ix2 r c) = Ideal.exp (s (ix2 r c) - rowTop s r) := by
  show Ideal.exp (s (ix2 r c) - topCol s (ix2 r c)) = _
  rw [topCol_apply]

theorem sumCol_apply (e : FVec Ideal S1024x2048 .f32) (r : Fin 1024) (c : Fin 2048) :
    sumCol e (ix2 r c) = ∑ k : Fin 2048, e (ix2 r k) := by
  unfold sumCol
  rw [broadcastTo_a1_ab_apply, shapeCast_a_a1_apply]
  refine (Ideal.multiReduction_add_single e _ reduces_S1024x2048_S1024 _ _ (ix1 r)).trans ?_
  exact Finset.sum_congr rfl fun k _ => congrArg e (lift_row _ r k)

theorem softRows_apply (s : FVec Ideal S1024x2048 .f32) (r : Fin 1024) (c : Fin 2048) :
    softRows s (ix2 r c)
      = Ideal.div (Ideal.exp (s (ix2 r c) - rowTop s r)) (∑ k : Fin 2048, Ideal.exp (s (ix2 r k) - rowTop s r)) := by
  show Ideal.div (weights s (ix2 r c)) (sumCol (weights s) (ix2 r c)) = _
  rw [weights_apply, sumCol_apply]
  exact congrArg _ (Finset.sum_congr rfl fun k _ => weights_apply s r k)

/-! ## The masked scores of the block -/

/-- The scaled query rows against the key rows, with −10⁹ at the masked positions. -/
def masked (x0 : Vec Ideal S1x1024x64 .f32) (x1 : Vec Ideal S1x2048x64 .f32) (x3 : Vec Ideal S1x1024x2048 .i32) :
    FVec Ideal S1024x2048 .f32 :=
  select (cmpi .ne (shapeCast S1024x2048 x3 shapeCasts_S1x1024x2048_S1024x2048 : IVec S1024x2048 32) (constantI S1024x2048 32 0#32))
    (broadcast S1024x2048 (Scalar.ofBits .f32 0xCE6E6B28#32))
    (matmul dot_S1024x64_S2048x64_S1024x2048_1_1_0_0_n_n (some .fp32)
      (mulf (shapeCast S1024x64 x0 shapeCasts_S1x1024x64_S1024x64 : FVec Ideal S1024x64 .f32) (broadcast S1024x64 (Scalar.ofBits .f32 0x3E000000#32)))
      (shapeCast S2048x64 x1 shapeCasts_S1x2048x64_S2048x64 : FVec Ideal S2048x64 .f32) (constant S1024x2048 .f32 0x00000000#32))

theorem qk_l0 (j : S1024x2048.Idx) (q : dot_S1024x64_S2048x64_S1024x2048_1_1_0_0_n_n.contr.Idx) :
    (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_l1 (j : S1024x2048.Idx) (q : dot_S1024x64_S2048x64_S1024x2048_1_1_0_0_n_n.contr.Idx) :
    (dot_S1024x64_S2048x64_S1024x2048_1_1_0_0_n_n.lhsIdx j q 1).val = (q ⟨0, by decide⟩).val :=
  dot_S1024x64_S2048x64_S1024x2048_1_1_0_0_n_n.lhsIdx_val_of_single rfl j q
theorem qk_r0 (j : S1024x2048.Idx) (q : dot_S1024x64_S2048x64_S1024x2048_1_1_0_0_n_n.contr.Idx) :
    (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_r1 (j : S1024x2048.Idx) (q : dot_S1024x64_S2048x64_S1024x2048_1_1_0_0_n_n.contr.Idx) :
    (dot_S1024x64_S2048x64_S1024x2048_1_1_0_0_n_n.rhsIdx j q 1).val = (q ⟨0, by decide⟩).val :=
  dot_S1024x64_S2048x64_S1024x2048_1_1_0_0_n_n.rhsIdx_val_of_single rfl j q

theorem masked_apply (x0 : Vec Ideal S1x1024x64 .f32) (x1 : Vec Ideal S1x2048x64 .f32) (x3 : Vec Ideal S1x1024x2048 .i32)
    (r : Fin 1024) (c : Fin 2048) :
    masked x0 x1 x3 (ix2 r c)
      = score (fun d => x0 (ix3 (0 : Fin 1) r d)) (fun c d => x1 (ix3 (0 : Fin 1) c d))
          (fun c => IntOp.cmpi .ne (x3 (ix3 (0 : Fin 1) r c)) 0#32) c := by
  unfold masked score
  show Scalar.select (IntOp.cmpi .ne (shapeCast S1024x2048 x3 shapeCasts_S1x1024x2048_S1024x2048 (ix2 r c)) 0#32) negBig _ = _
  rw [shapeCast_1ab_ab_apply]
  refine congrArg (Scalar.select _ negBig) ?_
  refine (Cert.Lora.rows_dot_zero dot_S1024x64_S2048x64_S1024x2048_1_1_0_0_n_n (some .fp32) rfl rfl qk_l0 qk_l1 qk_r0 qk_r1 _ _ r c).trans ?_
  refine Finset.sum_congr rfl fun k _ => ?_
  show (shapeCast S1024x64 x0 shapeCasts_S1x1024x64_S1024x64 (ix2 r k) * scaleC) * shapeCast S2048x64 x1 shapeCasts_S1x2048x64_S2048x64 (ix2 c k) = _
  rw [shapeCast_1ab_ab_apply, shapeCast_1ab_ab_apply]

/-! ## The two stores -/

theorem pay1_eq (x0 : Vec Ideal S1x1024x64 .f32) (x1 : Vec Ideal S1x2048x64 .f32) (x3 : Vec Ideal S1x1024x2048 .i32) :
    k0_pay1 (F := Ideal) x0 x1 x3 = softRows (masked x0 x1 x3) := rfl

/-- The probabilities the body computes, at (row r, key position c). -/
theorem pay1_apply (x0 : Vec Ideal S1x1024x64 .f32) (x1 : Vec Ideal S1x2048x64 .f32) (x3 : Vec Ideal S1x1024x2048 .i32)
    (r : Fin 1024) (c : Fin 2048) :
    k0_pay1 (F := Ideal) x0 x1 x3 (ix2 r c)
      = prob (fun d => x0 (ix3 (0 : Fin 1) r d)) (fun c d => x1 (ix3 (0 : Fin 1) c d))
          (fun c => IntOp.cmpi .ne (x3 (ix3 (0 : Fin 1) r c)) 0#32) c := by
  rw [pay1_eq, softRows_apply]
  have hs : ∀ k, masked x0 x1 x3 (ix2 r k) = score (fun d => x0 (ix3 (0 : Fin 1) r d)) (fun c d => x1 (ix3 (0 : Fin 1) c d))
      (fun c => IntOp.cmpi .ne (x3 (ix3 (0 : Fin 1) r c)) 0#32) k := fun k => masked_apply x0 x1 x3 r k
  have ht : rowTop (masked x0 x1 x3) r = top (fun d => x0 (ix3 (0 : Fin 1) r d)) (fun c d => x1 (ix3 (0 : Fin 1) c d))
      (fun c => IntOp.cmpi .ne (x3 (ix3 (0 : Fin 1) r c)) 0#32) := by
    unfold rowTop top
    exact congrArg (fun f => Finset.fold max negInf f Finset.univ) (funext hs)
  unfold prob weight
  rw [ht, hs c]
  exact congrArg _ (Finset.sum_congr rfl fun k _ => by rw [hs k])

/-- The first store: the probabilities under a leading unit axis. -/
theorem pay2_apply (x0 : Vec Ideal S1x1024x64 .f32) (x1 : Vec Ideal S1x2048x64 .f32) (x3 : Vec Ideal S1x1024x2048 .i32)
    (u : Fin 1) (r : Fin 1024) (c : Fin 2048) :
    k0_pay2 (F := Ideal) x0 x1 x3 (ix3 u r c)
      = prob (fun d => x0 (ix3 (0 : Fin 1) r d)) (fun c d => x1 (ix3 (0 : Fin 1) c d))
          (fun c => IntOp.cmpi .ne (x3 (ix3 (0 : Fin 1) r c)) 0#32) c := by
  unfold k0_pay2
  rw [shapeCast_ab_1ab_apply]
  exact pay1_apply x0 x1 x3 r c

theorem pv_l0 (j : S1024x64.Idx) (q : dot_S1024x2048_S2048x64_S1024x64_1_0_0_1_n_n.contr.Idx) :
    (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_l1 (j : S1024x64.Idx) (q : dot_S1024x2048_S2048x64_S1024x64_1_0_0_1_n_n.contr.Idx) :
    (dot_S1024x2048_S2048x64_S1024x64_1_0_0_1_n_n.lhsIdx j q 1).val = (q ⟨0, by decide⟩).val :=
  dot_S1024x2048_S2048x64_S1024x64_1_0_0_1_n_n.lhsIdx_val_of_single rfl j q
theorem pv_r0 (j : S1024x64.Idx) (q : dot_S1024x2048_S2048x64_S1024x64_1_0_0_1_n_n.contr.Idx) :
    (dot_S1024x2048_S2048x64_S1024x64_1_0_0_1_n_n.rhsIdx j q 0).val = (q ⟨0, by decide⟩).val :=
  dot_S1024x2048_S2048x64_S1024x64_1_0_0_1_n_n.rhsIdx_val_of_single rfl j q
theorem pv_r1 (j : S1024x64.Idx) (q : dot_S1024x2048_S2048x64_S1024x64_1_0_0_1_n_n.contr.Idx) :
    (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The second store: the context vectors, the probabilities against the value rows, under a leading unit axis. -/
theorem pay3_apply (x0 : Vec Ideal S1x1024x64 .f32) (x1 : Vec Ideal S1x2048x64 .f32) (x3 : Vec Ideal S1x1024x2048 .i32)
    (x2 : Vec Ideal S1x2048x64 .f32) (u : Fin 1) (r : Fin 1024) (d : Fin 64) :
    k0_pay3 (F := Ideal) x0 x1 x3 x2 (ix3 u r d)
      = ctx (fun d => x0 (ix3 (0 : Fin 1) r d)) (fun c d => x1 (ix3 (0 : Fin 1) c d))
          (fun c => IntOp.cmpi .ne (x3 (ix3 (0 : Fin 1) r c)) 0#32) (fun c d => x2 (ix3 (0 : Fin 1) c d)) d := by
  unfold k0_pay3
  rw [shapeCast_ab_1ab_apply]
  refine (mat_dot_zero dot_S1024x2048_S2048x64_S1024x64_1_0_0_1_n_n (some .fp32) rfl rfl pv_l0 pv_l1 pv_r0 pv_r1 _ _ r d).trans ?_
  unfold ctx
  refine Finset.sum_congr rfl fun k _ => ?_
  rw [pay1_apply, shapeCast_1ab_ab_apply]

end Cert.KernelIdeal.Payload

end
-- ==== Proof.KValue.lean ====
/-
  The two arrays the region leaves, as whole-array functions of the arrays it finds.

  The grid has a point for every head `g` (32 of them) and every half `qi` of the 2048 query positions. At a point
  the body is given the query rows `1024·qi + r` of head `g`, all of the head's key and value rows, and the mask
  rows `1024·qi + r`; it writes back the block of probabilities and the block of context vectors of those query
  rows. Each written block is therefore the block of ONE function of the whole arrays — the attention of every
  head and query position — and the blocks of the 64 points tile both output arrays.
-/
import proofs.«129661_j22874995818674_2_alg».proof.Proof.Gen.KernelIdeal.Frame
import proofs.«129661_j22874995818674_2_alg».proof.Proof.Payload
import proofs.«129661_j22874995818674_2_alg».proof.Proof.Softmax
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Cert.Softmax Cert.KernelIdeal.Payload
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- A mask word marks a masked position when it is not zero. -/
def maskBit (W : Sm3.Idx → BitVec 32) : Sm3.Idx → BitVec 1 := fun i => IntOp.cmpi .ne (W i) 0#32

/-- The probabilities of every head, query position and key position, from the arrays the region finds. -/
def Gattn (c : Dev nD) : S32x2048x2048.Idx → EReal :=
  attn3 (V m c main_v0) (V m c main_v1) (maskBit (V m c main_v4))

/-- The context vectors of every head and query position, from the arrays the region finds. -/
def Gctx (c : Dev nD) : S32x2048x64.Idx → EReal :=
  ctx3 (V m c main_v0) (V m c main_v1) (V m c main_v2) (maskBit (V m c main_v4))

/-- The printed index maps over the grid: the query, mask and both output windows move together over (head, half);
    the key and value windows follow the head only; no window moves along its last axis. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (2 : Fin 3) = 0 ∧ win0_5.index t (0 : Fin 3) ≤ 31 ∧ win0_5.index t (1 : Fin 3) ≤ 1 :=
  (by decide +kernel : ∀ t : Fin grid0.N, _)

/-- Every (head, half) is some point's. -/
theorem idx_onto : ∀ (q0 : Fin 32) (q1 : Fin 2), ∃ t : Fin cfg0.N,
    win0_5.index t (0 : Fin 3) = q0.val ∧ win0_5.index t (1 : Fin 3) = q1.val :=
  (by decide +kernel : ∀ (q0 : Fin 32) (q1 : Fin 2), ∃ t : Fin grid0.N,
    win0_5.index t (0 : Fin 3) = q0.val ∧ win0_5.index t (1 : Fin 3) = q1.val)

/-! ## The input blocks at a point, by coordinates -/

/-- The query block at point `t`: row `r` is query position `1024·half + r` of the point's head. -/
theorem blk0_apply (c : Dev nD) (t : Fin cfg0.N) (r : Fin 1024) (d : Fin 64) (g : Fin 32) (q : Fin 2048)
    (hg : g.val = win0_5.index t (0 : Fin 3)) (hq : q.val = win0_5.index t (1 : Fin 3) * 1024 + r.val) :
    iblk m c 0 t (ix3 (0 : Fin 1) r d) = V m c main_v0 (ix3 g q d) := by
  show V m c main_v0 (((cfg0.win 0).blk t).view.emb (ix3 (0 : Fin 1) r d)) = V m c main_v0 (ix3 g q d)
  refine congrArg _ (funext fun a => Fin.ext ?_)
  obtain ⟨e00, e01, e02, -⟩ := idx_facts t
  match a with
  | ⟨0, _⟩ => show win0_0.index t (0 : Fin 3) * 1 + 1 * 0 = g.val; omega
  | ⟨1, _⟩ => show win0_0.index t (1 : Fin 3) * 1024 + 1 * r.val = q.val; omega
  | ⟨2, _⟩ => show win0_0.index t (2 : Fin 3) * 64 + 1 * d.val = d.val; omega

/-- The key block at point `t`: all of the point's head's key rows. -/
theorem blk1_apply (c : Dev nD) (t : Fin cfg0.N) (k : Fin 2048) (d : Fin 64) (g : Fin 32)
    (hg : g.val = win0_5.index t (0 : Fin 3)) :
    iblk m c 1 t (ix3 (0 : Fin 1) k d) = V m c main_v1 (ix3 g k d) := by
  show V m c main_v1 (((cfg0.win 1).blk t).view.emb (ix3 (0 : Fin 1) k d)) = V m c main_v1 (ix3 g k d)
  refine congrArg _ (funext fun a => Fin.ext ?_)
  obtain ⟨-, -, -, e10, e11, e12, -⟩ := idx_facts t
  match a with
  | ⟨0, _⟩ => show win0_1.index t (0 : Fin 3) * 1 + 1 * 0 = g.val; omega
  | ⟨1, _⟩ => show win0_1.index t (1 : Fin 3) * 2048 + 1 * k.val = k.val; omega
  | ⟨2, _⟩ => show win0_1.index t (2 : Fin 3) * 64 + 1 * d.val = d.val; omega

/-- The value block at point `t`: all of the point's head's value rows. -/
theorem blk2_apply (c : Dev nD) (t : Fin cfg0.N) (k : Fin 2048) (d : Fin 64) (g : Fin 32)
    (hg : g.val = win0_5.index t (0 : Fin 3)) :
    iblk m c 2 t (ix3 (0 : Fin 1) k d) = V m c main_v2 (ix3 g k d) := by
  show V m c main_v2 (((cfg0.win 2).blk t).view.emb (ix3 (0 : Fin 1) k d)) = V m c main_v2 (ix3 g k d)
  refine congrArg _ (funext fun a => Fin.ext ?_)
  obtain ⟨-, -, -, -, -, -, e20, e21, e22, -⟩ := idx_facts t
  match a with
  | ⟨0, _⟩ => show win0_2.index t (0 : Fin 3) * 1 + 1 * 0 = g.val; omega
  | ⟨1, _⟩ => show win0_2.index t (1 : Fin 3) * 2048 + 1 * k.val = k.val; omega
  | ⟨2, _⟩ => show win0_2.index t (2 : Fin 3) * 64 + 1 * d.val = d.val; omega

/-- The mask block at point `t`: row `r` is the mask row of query position `1024·half + r` of the point's head. -/
theorem blk3_apply (c : Dev nD) (t : Fin cfg0.N) (r : Fin 1024) (k : Fin 2048) (g : Fin 32) (q : Fin 2048)
    (hg : g.val = win0_5.index t (0 : Fin 3)) (hq : q.val = win0_5.index t (1 : Fin 3) * 1024 + r.val) :
    iblk m c 3 t (ix3 (0 : Fin 1) r k) = V m c main_v4 (ix3 g q k) := by
  show V m c main_v4 (((cfg0.win 3).blk t).view.emb (ix3 (0 : Fin 1) r k)) = V m c main_v4 (ix3 g q k)
  refine congrArg _ (funext fun a => Fin.ext ?_)
  obtain ⟨-, -, -, -, -, -, -, -, -, e30, e31, e32, -⟩ := idx_facts t
  match a with
  | ⟨0, _⟩ => show win0_3.index t (0 : Fin 3) * 1 + 1 * 0 = g.val; omega
  | ⟨1, _⟩ => show win0_3.index t (1 : Fin 3) * 1024 + 1 * r.val = q.val; omega
  | ⟨2, _⟩ => show win0_3.index t (2 : Fin 3) * 2048 + 1 * k.val = k.val; omega

/-! ## What a point writes back -/

/-- Point `t` writes back, to the probabilities' array, its block of `Gattn`. -/
theorem flushed5_eq (c : Dev nD) (t : Fin cfg0.N) :
    (dats m 0 c).flushed 5 t = ((cfg0.win 5).blk t).view.read (Elt Ideal) (Gattn m c) := by
  show (cfg0.win 5).cut (grid0.coords t) ((dats m 0 c).after 5 t) = _
  rw [after0_5]
  unfold out0_5
  rw [View.canon_unit_zero hz3]
  simp only [View.ld_unit_zero (S := S1x1024x64) hz3, View.ld_unit_zero (S := S1x2048x64) hz3, View.ld_unit_zero (S := S1x1024x2048) hz3]
  obtain ⟨-, -, -, -, -, -, -, -, -, -, -, -, -, -, -, e52, e50, e51⟩ := idx_facts t
  refine funext fun (j : S1x1024x2048.Idx) => ?_
  obtain ⟨u, r, k, rfl⟩ : ∃ (u : Fin 1) (r : Fin 1024) (k : Fin 2048), j = ix3 u r k := ⟨j 0, j 1, j 2, eq_ix3 j⟩
  have hg : win0_5.index t (0 : Fin 3) < 32 := by omega
  have hq : win0_5.index t (1 : Fin 3) * 1024 + r.val < 2048 := by have := r.isLt; omega
  have he : ((cfg0.win 5).blk t).view.emb (ix3 u r k) = ix3 (⟨win0_5.index t (0 : Fin 3), hg⟩ : Fin 32) (⟨win0_5.index t (1 : Fin 3) * 1024 + r.val, hq⟩ : Fin 2048) k :=
    funext fun a => Fin.ext (by
      match a with
      | ⟨0, _⟩ => show win0_5.index t (0 : Fin 3) * 1 + 1 * u.val = win0_5.index t (0 : Fin 3); have := u.isLt; omega
      | ⟨1, _⟩ => show win0_5.index t (1 : Fin 3) * 1024 + 1 * r.val = win0_5.index t (1 : Fin 3) * 1024 + r.val; omega
      | ⟨2, _⟩ => show win0_5.index t (2 : Fin 3) * 2048 + 1 * k.val = k.val; omega)
  show k0_pay2 (iblk m c 0 t) (iblk m c 1 t) (iblk m c 3 t) (ix3 u r k) = Gattn m c (((cfg0.win 5).blk t).view.emb (ix3 u r k))
  rw [he]
  refine (pay2_apply (iblk m c 0 t) (iblk m c 1 t) (iblk m c 3 t) u r k).trans ?_
  unfold Gattn attn3
  show prob _ _ _ k = prob _ _ _ k
  have e0 : (fun d => iblk m c 0 t (ix3 (0 : Fin 1) r d)) = fun d => V m c main_v0 (ix3 (⟨win0_5.index t (0 : Fin 3), hg⟩ : Fin 32) (⟨win0_5.index t (1 : Fin 3) * 1024 + r.val, hq⟩ : Fin 2048) d) :=
    funext fun d => blk0_apply m c t r d _ _ rfl rfl
  have e1 : (fun k' d => iblk m c 1 t (ix3 (0 : Fin 1) k' d)) = fun k' d => V m c main_v1 (ix3 (⟨win0_5.index t (0 : Fin 3), hg⟩ : Fin 32) k' d) :=
    funext fun k' => funext fun d => blk1_apply m c t k' d _ rfl
  have e3 : (fun k' => IntOp.cmpi .ne (iblk m c 3 t (ix3 (0 : Fin 1) r k')) 0#32) = fun k' => maskBit (V m c main_v4) (ix3 (⟨win0_5.index t (0 : Fin 3), hg⟩ : Fin 32) (⟨win0_5.index t (1 : Fin 3) * 1024 + r.val, hq⟩ : Fin 2048) k') :=
    funext fun k' => congrArg (fun w => IntOp.cmpi .ne w 0#32) (blk3_apply m c t r k' _ _ rfl rfl)
  rw [e0, e1, e3]

/-- Point `t` writes back, to the context vectors' array, its block of `Gctx`. -/
theorem flushed4_eq (c : Dev nD) (t : Fin cfg0.N) :
    (dats m 0 c).flushed 4 t = ((cfg0.win 4).blk t).view.read (Elt Ideal) (Gctx m c) := by
  show (cfg0.win 4).cut (grid0.coords t) ((dats m 0 c).after 4 t) = _
  rw [after0_4]
  unfold out0_4
  rw [View.canon_unit_zero hz3]
  simp only [View.ld_unit_zero (S := S1x1024x64) hz3, View.ld_unit_zero (S := S1x2048x64) hz3, View.ld_unit_zero (S := S1x1024x2048) hz3]
  obtain ⟨-, -, -, -, -, -, -, -, -, -, -, -, e40, e41, e42, e52, e50, e51⟩ := idx_facts t
  refine funext fun (j : S1x1024x64.Idx) => ?_
  obtain ⟨u, r, d, rfl⟩ : ∃ (u : Fin 1) (r : Fin 1024) (d : Fin 64), j = ix3 u r d := ⟨j 0, j 1, j 2, eq_ix3 j⟩
  have hg : win0_5.index t (0 : Fin 3) < 32 := by omega
  have hq : win0_5.index t (1 : Fin 3) * 1024 + r.val < 2048 := by have := r.isLt; omega
  have he : ((cfg0.win 4).blk t).view.emb (ix3 u r d) = ix3 (⟨win0_5.index t (0 : Fin 3), hg⟩ : Fin 32) (⟨win0_5.index t (1 : Fin 3) * 1024 + r.val, hq⟩ : Fin 2048) d :=
    funext fun a => Fin.ext (by
      match a with
      | ⟨0, _⟩ => show win0_4.index t (0 : Fin 3) * 1 + 1 * u.val = win0_5.index t (0 : Fin 3); have := u.isLt; omega
      | ⟨1, _⟩ => show win0_4.index t (1 : Fin 3) * 1024 + 1 * r.val = win0_5.index t (1 : Fin 3) * 1024 + r.val; omega
      | ⟨2, _⟩ => show win0_4.index t (2 : Fin 3) * 64 + 1 * d.val = d.val; omega)
  show k0_pay3 (iblk m c 0 t) (iblk m c 1 t) (iblk m c 3 t) (iblk m c 2 t) (ix3 u r d) = Gctx m c (((cfg0.win 4).blk t).view.emb (ix3 u r d))
  rw [he]
  refine (pay3_apply (iblk m c 0 t) (iblk m c 1 t) (iblk m c 3 t) (iblk m c 2 t) u r d).trans ?_
  unfold Gctx ctx3
  show ctx _ _ _ _ d = ctx _ _ _ _ d
  have e0 : (fun d => iblk m c 0 t (ix3 (0 : Fin 1) r d)) = fun d => V m c main_v0 (ix3 (⟨win0_5.index t (0 : Fin 3), hg⟩ : Fin 32) (⟨win0_5.index t (1 : Fin 3) * 1024 + r.val, hq⟩ : Fin 2048) d) :=
    funext fun d => blk0_apply m c t r d _ _ rfl rfl
  have e1 : (fun k' d => iblk m c 1 t (ix3 (0 : Fin 1) k' d)) = fun k' d => V m c main_v1 (ix3 (⟨win0_5.index t (0 : Fin 3), hg⟩ : Fin 32) k' d) :=
    funext fun k' => funext fun d => blk1_apply m c t k' d _ rfl
  have e2 : (fun k' d => iblk m c 2 t (ix3 (0 : Fin 1) k' d)) = fun k' d => V m c main_v2 (ix3 (⟨win0_5.index t (0 : Fin 3), hg⟩ : Fin 32) k' d) :=
    funext fun k' => funext fun d => blk2_apply m c t k' d _ rfl
  have e3 : (fun k' => IntOp.cmpi .ne (iblk m c 3 t (ix3 (0 : Fin 1) r k')) 0#32) = fun k' => maskBit (V m c main_v4) (ix3 (⟨win0_5.index t (0 : Fin 3), hg⟩ : Fin 32) (⟨win0_5.index t (1 : Fin 3) * 1024 + r.val, hq⟩ : Fin 2048) k') :=
    funext fun k' => congrArg (fun w => IntOp.cmpi .ne w 0#32) (blk3_apply m c t r k' _ _ rfl rfl)
  rw [e0, e1, e2, e3]

/-! ## The blocks tile the arrays -/

theorem mem_blk5 (t : Fin cfg0.N) (i : S32x2048x2048.Idx) :
    i ∈ ((cfg0.win 5).blk t).view.set ↔ ∀ a : Fin 3, win0_5.index t a * S1x1024x2048.size a ≤ (i a).val ∧ (i a).val < win0_5.index t a * S1x1024x2048.size a + S1x1024x2048.size a := by
  show i ∈ ((View.whole main_v5_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5_0).slice (win0_4.rect t)).set ↔ _
  rw [View.set_slice_whole, Rect.mem_set_unit]
  exact Iff.rfl

/-- Every index of the probabilities' array is in the block of the point of its head and its query position's half. -/
theorem cover5 (i : S32x2048x2048.Idx) : ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, q0, q1⟩ := idx_onto ⟨(i 0).val, hi0⟩ ⟨(i 1).val / 1024, by omega⟩
  obtain ⟨-, -, -, -, -, -, -, -, -, -, -, -, -, -, -, e52, -, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; simp only at q0; omega
  | ⟨1, _⟩ => show win0_5.index t (1 : Fin 3) * 1024 ≤ (i 1).val ∧ (i 1).val < win0_5.index t (1 : Fin 3) * 1024 + 1024; simp only at q1; omega
  | ⟨2, _⟩ => show win0_5.index t (2 : Fin 3) * 2048 ≤ (i 2).val ∧ (i 2).val < win0_5.index t (2 : Fin 3) * 2048 + 2048; omega

/-- Every index of the context vectors' array is in the block of the point of its head and its query position's half. -/
theorem cover4 (i : S32x2048x64.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, q0, q1⟩ := idx_onto ⟨(i 0).val, hi0⟩ ⟨(i 1).val / 1024, by omega⟩
  obtain ⟨-, -, -, -, -, -, -, -, -, -, -, -, e40, e41, e42, -, -, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; simp only at q0; omega
  | ⟨1, _⟩ => show win0_4.index t (1 : Fin 3) * 1024 ≤ (i 1).val ∧ (i 1).val < win0_4.index t (1 : Fin 3) * 1024 + 1024; simp only at q1; omega
  | ⟨2, _⟩ => show win0_4.index t (2 : Fin 3) * 64 ≤ (i 2).val ∧ (i 2).val < win0_4.index t (2 : Fin 3) * 64 + 64; omega

/-- The probabilities' array after the region. -/
theorem final5 (c : Dev nD) : (dats m 0 c).arrAt 5 cfg0.N = Gattn m c :=
  (dats m 0 c).arrAt_eq_of_cover 5 (Gattn m c) (fun t _ => flushed5_eq m c t) cover5

/-- The context vectors' array after the region. -/
theorem final4 (c : Dev nD) : (dats m 0 c).arrAt 4 cfg0.N = Gctx m c :=
  (dats m 0 c).arrAt_eq_of_cover 4 (Gctx m c) (fun t _ => flushed4_eq m c t) cover4

end Cert.KernelIdeal.KValue

end
-- ==== Proof.KRun.lean ====
/-
  The kernel's program, run: its two results as functions of its arguments.

  Before the region the program flattens the two leading axes (batch, head) of the queries, keys, values and mask
  into one axis of 32 heads, and widens the mask's bits to 32-bit words; after it, it splits that axis again. A
  widened bit is nonzero exactly when the bit is one, so the region's masked positions are the argument's. The
  region leaves the attention of the flattened arrays (the blocks written back tile both outputs), so the program's
  results are that attention with its leading axis split.
-/
import proofs.«129661_j22874995818674_2_alg».proof.Proof.Gen.KernelIdeal.Frame
import proofs.«129661_j22874995818674_2_alg».proof.Proof.KValue
import proofs.«129661_j22874995818674_2_alg».proof.Proof.Softmax
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.KRun

open Cert.KernelIdeal Cert.KernelIdeal.Gen Idealize.ShloMosaic Idealize.ShloMosaic.TcCoe Idealize.SL.Sem
open Idealize.ShloMosaic.ValueIdx Cert.Softmax Cert.KernelIdeal.KValue
open Idealize.ShloMosaic.Pipeline (Dat)

variable (m : (ℓ : Loc nD τ sig) → Buf (Elt Ideal) ℓ) (ρ : Dev nD → PrngReg)

/-! ## The arguments with batch and head flattened -/

def Q3 (c : Dev nD) : S32x2048x64.Idx → EReal :=
  shapeCast S32x2048x64 (m ((c : Thread nD τ).loc main_arg0)) shapeCasts_S2x16x2048x64_S32x2048x64
def K3 (c : Dev nD) : S32x2048x64.Idx → EReal :=
  shapeCast S32x2048x64 (m ((c : Thread nD τ).loc main_arg1)) shapeCasts_S2x16x2048x64_S32x2048x64
def V3 (c : Dev nD) : S32x2048x64.Idx → EReal :=
  shapeCast S32x2048x64 (m ((c : Thread nD τ).loc main_arg2)) shapeCasts_S2x16x2048x64_S32x2048x64
def M3 (c : Dev nD) : S32x2048x2048.Idx → BitVec 1 :=
  shapeCast S32x2048x2048 (m ((c : Thread nD τ).loc main_arg3)) shapeCasts_S2x16x2048x2048_S32x2048x2048

/-! ## What the region finds -/

theorem V_v0 (c : Dev nD) : (V m c main_v0 : S32x2048x64.Idx → EReal) = Q3 m c := by
  show StableHlo.after hostOps0 (fun b => m (c, b)) (Proc.devRef .tc main_v0) = _
  after_results
  rfl

theorem V_v1 (c : Dev nD) : (V m c main_v1 : S32x2048x64.Idx → EReal) = K3 m c := by
  show StableHlo.after hostOps0 (fun b => m (c, b)) (Proc.devRef .tc main_v1) = _
  after_results
  rfl

theorem V_v2 (c : Dev nD) : (V m c main_v2 : S32x2048x64.Idx → EReal) = V3 m c := by
  show StableHlo.after hostOps0 (fun b => m (c, b)) (Proc.devRef .tc main_v2) = _
  after_results
  rfl

theorem V_v4 (c : Dev nD) : (V m c main_v4 : S32x2048x2048.Idx → BitVec 32) = extui 32 (M3 m c) natLt_1_32 := by
  show StableHlo.after hostOps0 (fun b => m (c, b)) (Proc.devRef .tc main_v4) = _
  after_results
  rfl

/-- A bit widened to a word is not the zero word exactly when it is one. -/
theorem maskBit_extui (M : Sm3.Idx → BitVec 1) (h : 1 < 32) : maskBit (extui 32 M h) = M := by
  funext i
  show IntOp.cmpi .ne ((M i).setWidth 32) 0#32 = M i
  rcases BitVec.eq_zero_or_eq_one (M i) with h0 | h0 <;> rw [h0] <;> decide

theorem Gattn_eq (c : Dev nD) : Gattn m c = attn3 (Q3 m c) (K3 m c) (M3 m c) := by
  unfold Gattn
  rw [V_v0, V_v1, V_v4, maskBit_extui]

theorem Gctx_eq (c : Dev nD) : Gctx m c = ctx3 (Q3 m c) (K3 m c) (V3 m c) (M3 m c) := by
  unfold Gctx
  rw [V_v0, V_v1, V_v2, V_v4, maskBit_extui]

/-! ## What the program returns -/

theorem tail_v7 (c : Dev nD) : Pipeline.afterTail₀ cfgs (dats m) 0 (V0 m) [hostOps1] c main_v7
    = shapeCast S2x16x2048x2048 (Gattn m c) shapeCasts_S32x2048x2048_S2x16x2048x2048 := by
  have e : Pipeline.withArrays (cfgs 0).spec c (V0 m c) (fun w => (dats m 0 c).arrAt w (cfgs 0).N) (Proc.devRef .tc main_v5_1) = Gattn m c :=
    (Pipeline.withArrays_arr spec0 launch0.win.arr_inj c (V0 m c) (fun w => (dats m 0 c).arrAt w cfg0.N) 5).trans (final5 m c)
  unfold Pipeline.afterTail₀
  show StableHlo.after hostOps1 _ (Proc.devRef .tc main_v7) = _
  after_results
  rw [e]
  rfl

theorem tail_v6 (c : Dev nD) : Pipeline.afterTail₀ cfgs (dats m) 0 (V0 m) [hostOps1] c main_v6
    = shapeCast S2x16x2048x64 (Gctx m c) shapeCasts_S32x2048x64_S2x16x2048x64 := by
  have e : Pipeline.withArrays (cfgs 0).spec c (V0 m c) (fun w => (dats m 0 c).arrAt w (cfgs 0).N) (Proc.devRef .tc main_v5_0) = Gctx m c :=
    (Pipeline.withArrays_arr spec0 launch0.win.arr_inj c (V0 m c) (fun w => (dats m 0 c).arrAt w cfg0.N) 4).trans (final4 m c)
  unfold Pipeline.afterTail₀
  show StableHlo.after hostOps1 _ (Proc.devRef .tc main_v6) = _
  after_results
  rw [e]
  rfl

/-- Every weakly fair execution of the kernel's program terminates with the context vectors and the probabilities
    of the flattened arguments, their leading axis split back into batch and head, and the arguments unchanged. -/
theorem run : θ_run defs (onTc (τ := τ) (main (F := Ideal))) ⟨m, fun _ => 0, ρ⟩ fun r => ∀ c : Dev nD,
      r.2.mem ((c.tc : Thread nD τ).loc main_v6)
        = shapeCast S2x16x2048x64 (ctx3 (Q3 m c) (K3 m c) (V3 m c) (M3 m c)) shapeCasts_S32x2048x64_S2x16x2048x64
      ∧ r.2.mem ((c.tc : Thread nD τ).loc main_v7)
        = shapeCast S2x16x2048x2048 (attn3 (Q3 m c) (K3 m c) (M3 m c)) shapeCasts_S32x2048x2048_S2x16x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans
        ((tail_v6 m c).trans (by rw [Gctx_eq])),
      ((h c).2 main_v7 (Pipeline.mem_restRefs_of main_v7 (by decide) (by decide))).trans
        ((tail_v7 m c).trans (by rw [Gattn_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefSide.lean ====
/-
  The reference program of masked scaled-dot-product attention, read as the row-wise specification.

  The reference computes, for arrays of shape [2, 16, 2048, ·], the scores Σ_d Q·K divided by √64, the masked fill,
  the row maximum, the exponentials of the differences, their row sums, the quotients, and the contraction of the
  quotients against the value rows. Each stage is read at explicit coordinates (b, h, r, c) as the corresponding
  quantity of one query row; the two leading axes are then merged into one head axis of size 32, g = 16·b + h.
-/
import proofs.«129661_j22874995818674_2_alg».proof.Proof.Gen.ReferenceIdeal.Read
import proofs.«129661_j22874995818674_2_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefSide

open Idealize.ShloMosaic Idealize.ShloMosaic.ValueIdx Cert.Softmax

abbrev Sq4 : Shape := ⟨4, ![2, 16, 2048, 64]⟩
abbrev Sm4 : Shape := ⟨4, ![2, 16, 2048, 2048]⟩

/-! ## Merging the two leading axes -/

/-- A [2, 16, c, d] array cast to [32, c, d], read at head g = 16·b + h, is the array at (b, h, ·, ·). -/
theorem merge_apply {α : Type} {c d : Nat} (x : (⟨4, ![2, 16, c, d]⟩ : Shape).Idx → α)
    (hc : (⟨4, ![2, 16, c, d]⟩ : Shape).ShapeCasts ⟨3, ![32, c, d]⟩) (b : Fin 2) (h : Fin 16) (p : Fin c) (q : Fin d)
    (g : Fin 32) (hg : g.val = b.val * 16 + h.val) :
    shapeCast ⟨3, ![32, c, d]⟩ x hc (ix3 g p q) = x (ix4 b h p q) := by
  refine shapeCast_apply x hc _ _ ?_
  rw [Shape.rowMajor_val_four, Shape.rowMajor_val_three]
  show ((b.val * 16 + h.val) * c + p.val) * d + q.val = (g.val * c + p.val) * d + q.val
  rw [hg]

/-- A [32, c, d] array cast to [2, 16, c, d], read at (b, h, ·, ·), is the array at head g = 16·b + h. -/
theorem split_apply {α : Type} {c d : Nat} (x : (⟨3, ![32, c, d]⟩ : Shape).Idx → α)
    (hc : (⟨3, ![32, c, d]⟩ : Shape).ShapeCasts ⟨4, ![2, 16, c, d]⟩) (b : Fin 2) (h : Fin 16) (p : Fin c) (q : Fin d)
    (g : Fin 32) (hg : g.val = b.val * 16 + h.val) :
    shapeCast ⟨4, ![2, 16, c, d]⟩ x hc (ix4 b h p q) = x (ix3 g p q) := by
  refine shapeCast_apply x hc _ _ ?_
  rw [Shape.rowMajor_val_four, Shape.rowMajor_val_three]
  show (g.val * c + p.val) * d + q.val = ((b.val * 16 + h.val) * c + p.val) * d + q.val
  rw [hg]

/-! ## The reference's stages at explicit coordinates -/

section Stages

open Cert.ReferenceIdeal Cert.ReferenceIdeal.Read

variable [Cert.ReferenceIdeal.Facts]
variable (Q K V : Sq4.Idx → EReal) (M : Sm4.Idx → BitVec 1)

/-- The query row, key rows, mask row and value rows of batch b, head h, query position r. -/
abbrev qrow (b : Fin 2) (h : Fin 16) (r : Fin 2048) : Fin 64 → EReal := fun d => Q (ix4 b h r d)
abbrev krows (b : Fin 2) (h : Fin 16) : Fin 2048 → Fin 64 → EReal := fun c d => K (ix4 b h c d)
abbrev mrow (b : Fin 2) (h : Fin 16) (r : Fin 2048) : Fin 2048 → BitVec 1 := fun c => M (ix4 b h r c)

/-- The masked score: the contraction divided by √64 under the select is the specification's score. -/
theorem v4_at (b : Fin 2) (h : Fin 16) (r c : Fin 2048) :
    val_main_v4 (F := Ideal) Q K M (ix4 b h r c) = score (qrow Q b h r) (krows K b h) (mrow M b h r) c := by
  rw [val_main_v4_apply, val_main_call0_v0_apply, val_main_cst_0_apply, val_main_v3_apply, val_main_v0_apply,
    val_main_v2_apply, val_main_v1_apply, val_main_cst_apply]
  have hl : ∀ k : Fin 64, lidx_main_v0 (ix4 b h r c) k = ix4 b h r k := fun k => funext fun a => Fin.ext (by
    match a with | ⟨0, _⟩ => rfl | ⟨1, _⟩ => rfl | ⟨2, _⟩ => rfl | ⟨3, _⟩ => rfl)
  have hr : ∀ k : Fin 64, ridx_main_v0 (ix4 b h r c) k = ix4 b h c k := fun k => funext fun a => Fin.ext (by
    match a with | ⟨0, _⟩ => rfl | ⟨1, _⟩ => rfl | ⟨2, _⟩ => rfl | ⟨3, _⟩ => rfl)
  simp only [hl, hr]
  unfold score
  rw [← scale_after_eq]
  rfl

/-- The row maximum: the max-reduce over the key axis, then the maximum with −∞, is the specification's top. -/
theorem v7_at (b : Fin 2) (h : Fin 16) (r : Fin 2048) :
    val_main_v7 (F := Ideal) Q K M (ix3 b h r) = top (qrow Q b h r) (krows K b h) (mrow M b h r) := by
  rw [val_main_v7_apply, val_main_v6_apply, val_main_cst_2_apply]
  unfold val_main_v5
  have hR : Shape.Reduces S2x16x2048x2048 [3] S2x16x2048 := by decide
  rw [Host.reduce_eq_fold_single _ _ _ _ hR]
  rw [val_main_cst_1_apply]
  show max negInf ((Finset.univ : Finset (Fin 2048)).fold max negInf
      (val_main_v4 (F := Ideal) Q K M ∘ hR.lift (ix3 b h r))) = _
  rw [max_negInf]
  unfold top
  refine Finset.fold_congr fun (k : Fin 2048) _ => ?_
  have hk : hR.lift (ix3 b h r) k = ix4 b h r k := funext fun a => Fin.ext (by
    match a with | ⟨0, _⟩ => rfl | ⟨1, _⟩ => rfl | ⟨2, _⟩ => rfl | ⟨3, _⟩ => rfl)
  show val_main_v4 (F := Ideal) Q K M (hR.lift (ix3 b h r) k) = _
  rw [hk, v4_at]

/-- The unnormalized weight: the exponential of the score less the row maximum, the maximum read back through the
    two keepdims broadcasts. -/
theorem v11_at (b : Fin 2) (h : Fin 16) (r c : Fin 2048) :
    val_main_v11 (F := Ideal) Q K M (ix4 b h r c) = weight (qrow Q b h r) (krows K b h) (mrow M b h r) c := by
  rw [val_main_v11_apply, val_main_v10_apply, val_main_v9_apply, val_main_v8_apply]
  have e : idx_main_v8 (idx_main_v9 (ix4 b h r c)) = ix3 b h r := funext fun a => Fin.ext (by
    match a with | ⟨0, _⟩ => rfl | ⟨1, _⟩ => rfl | ⟨2, _⟩ => rfl)
  rw [e, v4_at, v7_at]
  rfl

/-- The row sum of the weights: the add-reduce over the key axis from the initial value 0. -/
theorem v12_at (b : Fin 2) (h : Fin 16) (r : Fin 2048) :
    val_main_v12 (F := Ideal) Q K M (ix3 b h r)
      = ∑ c : Fin 2048, weight (qrow Q b h r) (krows K b h) (mrow M b h r) c := by
  rw [val_main_v12_apply, val_main_cst_3_apply]
  show Ideal.ofBits .f32 0x00000000#32 + _ = _
  rw [Ideal.ofBits_zero_f32, zero_add]
  refine Finset.sum_congr rfl fun k _ => ?_
  have e : idx_main_v12 (ix3 b h r) k = ix4 b h r k := funext fun a => Fin.ext (by
    match a with | ⟨0, _⟩ => rfl | ⟨1, _⟩ => rfl | ⟨2, _⟩ => rfl | ⟨3, _⟩ => rfl)
  rw [e, v11_at]

/-- The attention probability: the weight divided by the row sum, the sum read back through the two keepdims
    broadcasts. -/
theorem v15_at (b : Fin 2) (h : Fin 16) (r c : Fin 2048) :
    val_main_v15 (F := Ideal) Q K M (ix4 b h r c) = prob (qrow Q b h r) (krows K b h) (mrow M b h r) c := by
  rw [val_main_v15_apply, val_main_v14_apply, val_main_v13_apply]
  have e : idx_main_v13 (idx_main_v14 (ix4 b h r c)) = ix3 b h r := funext fun a => Fin.ext (by
    match a with | ⟨0, _⟩ => rfl | ⟨1, _⟩ => rfl | ⟨2, _⟩ => rfl)
  rw [e, v11_at, v12_at]
  rfl

/-- The context vector: the probabilities contracted against the value rows over the key axis. -/
theorem v16_at (b : Fin 2) (h : Fin 16) (r : Fin 2048) (d : Fin 64) :
    val_main_v16 (F := Ideal) Q K V M (ix4 b h r d)
      = ctx (qrow Q b h r) (krows K b h) (mrow M b h r) (krows V b h) d := by
  rw [val_main_v16_apply]
  unfold ctx
  refine Finset.sum_congr rfl fun k _ => ?_
  have el : lidx_main_v16 (ix4 b h r d) k = ix4 b h r k := funext fun a => Fin.ext (by
    match a with | ⟨0, _⟩ => rfl | ⟨1, _⟩ => rfl | ⟨2, _⟩ => rfl | ⟨3, _⟩ => rfl)
  have er : ridx_main_v16 (ix4 b h r d) k = ix4 b h k d := funext fun a => Fin.ext (by
    match a with | ⟨0, _⟩ => rfl | ⟨1, _⟩ => rfl | ⟨2, _⟩ => rfl | ⟨3, _⟩ => rfl)
  rw [el, er, v15_at]

end Stages

/-! ## The two results, heads flattened -/

section Results

open Cert.ReferenceIdeal Cert.ReferenceIdeal.Read

variable [Cert.ReferenceIdeal.Facts]

/-- The reference's attention probabilities are the specification's, the head axes merged on the way in and split
    on the way out. -/
theorem ref_attn (hq : Sq4.ShapeCasts Sq3) (hm : Sm4.ShapeCasts Sm3) (hm' : Sm3.ShapeCasts Sm4)
    (Q K : Sq4.Idx → EReal) (M : Sm4.Idx → BitVec 1) :
    val_main_v15 (F := Ideal) Q K M
      = shapeCast Sm4 (attn3 (shapeCast Sq3 Q hq) (shapeCast Sq3 K hq) (shapeCast Sm3 M hm)) hm' := by
  funext i
  obtain ⟨b, h, r, c, rfl⟩ : ∃ b h r c, i = ix4 b h r c := ⟨i 0, i 1, i 2, i 3, eq_ix4 i⟩
  have hb := b.isLt
  have hh := h.isLt
  let g : Fin 32 := ⟨b.val * 16 + h.val, by omega⟩
  rw [v15_at, split_apply _ hm' b h r c g rfl]
  show _ = prob (fun d => shapeCast Sq3 Q hq (ix3 g r d)) (fun c d => shapeCast Sq3 K hq (ix3 g c d))
      (fun c => shapeCast Sm3 M hm (ix3 g r c)) c
  have eQ : (fun d => shapeCast Sq3 Q hq (ix3 g r d)) = qrow Q b h r :=
    funext fun d => merge_apply Q hq b h r d g rfl
  have eK : (fun c d => shapeCast Sq3 K hq (ix3 g c d)) = krows K b h :=
    funext fun c => funext fun d => merge_apply K hq b h c d g rfl
  have eM : (fun c => shapeCast Sm3 M hm (ix3 g r c)) = mrow M b h r :=
    funext fun c => merge_apply M hm b h r c g rfl
  rw [eQ, eK, eM]

/-- The reference's context vectors are the specification's, likewise. -/
theorem ref_ctx (hq : Sq4.ShapeCasts Sq3) (hq' : Sq3.ShapeCasts Sq4) (hm : Sm4.ShapeCasts Sm3)
    (Q K V : Sq4.Idx → EReal) (M : Sm4.Idx → BitVec 1) :
    val_main_v16 (F := Ideal) Q K V M
      = shapeCast Sq4 (ctx3 (shapeCast Sq3 Q hq) (shapeCast Sq3 K hq) (shapeCast Sq3 V hq) (shapeCast Sm3 M hm)) hq' := by
  funext i
  obtain ⟨b, h, r, d, rfl⟩ : ∃ b h r d, i = ix4 b h r d := ⟨i 0, i 1, i 2, i 3, eq_ix4 i⟩
  have hb := b.isLt
  have hh := h.isLt
  let g : Fin 32 := ⟨b.val * 16 + h.val, by omega⟩
  rw [v16_at, split_apply _ hq' b h r d g rfl]
  show _ = ctx (fun d => shapeCast Sq3 Q hq (ix3 g r d)) (fun c d => shapeCast Sq3 K hq (ix3 g c d))
      (fun c => shapeCast Sm3 M hm (ix3 g r c)) (fun c d => shapeCast Sq3 V hq (ix3 g c d)) d
  have eQ : (fun d => shapeCast Sq3 Q hq (ix3 g r d)) = qrow Q b h r :=
    funext fun d => merge_apply Q hq b h r d g rfl
  have eK : (fun c d => shapeCast Sq3 K hq (ix3 g c d)) = krows K b h :=
    funext fun c => funext fun d => merge_apply K hq b h c d g rfl
  have eV : (fun c d => shapeCast Sq3 V hq (ix3 g c d)) = krows V b h :=
    funext fun c => funext fun d => merge_apply V hq b h c d g rfl
  have eM : (fun c => shapeCast Sm3 M hm (ix3 g r c)) = mrow M b h r :=
    funext fun c => merge_apply M hm b h r c g rfl
  rw [eQ, eK, eV, eM]

end Results

end Cert.RefSide

end
-- ==== Proof.lean ====
/-
  Masked scaled-dot-product attention: a kernel over (head, half of the query positions) against jnp's
  einsum · softmax · einsum, equal at the ideal instance.

  Both programs return, for every batch, head and query position, the row's attention probabilities
  softmax_c(score c) and the row's context vector Σ_c prob c · V[c, ·], where score c is −10⁹ at a masked key
  position and the scaled dot product of the query row with key row c elsewhere. They differ in three ways, none
  of which changes an extended real: the kernel flattens (batch, head) into 32 heads and works on blocks of 1024
  query rows, whose written blocks tile the outputs; it scales the query row by the f32 word 0.125 = 1/8 before
  the contraction where the reference divides the contraction by √64 = 8 after it (multiplying by a nonnegative
  real distributes over any sum of extended reals, and the product is commutative and associative); and the
  reference takes one more maximum with −∞, which is the identity. The row maximum and the row sum are the same
  folds on both sides. Neither side needs its inputs finite: the precondition is never opened.

  The kernel's side is Proof/Payload.lean (the body's two stores at an index), Proof/KValue.lean (blocks to whole
  arrays) and Proof/KRun.lean (the program's run); the reference's side is Proof/RefSide.lean over its generated
  run; Proof/Softmax.lean states the row's attention once for both.
-/
import proofs.«129661_j22874995818674_2_alg».proof.Defs
import proofs.«129661_j22874995818674_2_alg».proof.Proof.Gen.Kernel
import proofs.«129661_j22874995818674_2_alg».proof.Proof.Gen.Kernel.Frame
import proofs.«129661_j22874995818674_2_alg».proof.Proof.Gen.KernelIdeal
import proofs.«129661_j22874995818674_2_alg».proof.Proof.Gen.KernelIdeal.Frame
import proofs.«129661_j22874995818674_2_alg».proof.Proof.Gen.ReferenceIdeal
import proofs.«129661_j22874995818674_2_alg».proof.Proof.Gen.Pre_finite_inputs
import proofs.«129661_j22874995818674_2_alg».proof.Proof.Gen.ReferenceIdeal.Run
import proofs.«129661_j22874995818674_2_alg».proof.Proof.Gen.ReferenceIdeal.Read
import proofs.«129661_j22874995818674_2_alg».proof.Proof.KRun
import proofs.«129661_j22874995818674_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From arguments that agree, both programs end with the context vectors and the probabilities of the flattened
    arguments, the leading axis split back: the kernel by its run, the reference by its run read stage by stage. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v16_eq (F := Ideal) _ _ _ _).trans ?_
    rw [Cert.RefSide.ref_ctx Cert.KernelIdeal.Gen.shapeCasts_S2x16x2048x64_S32x2048x64
      Cert.KernelIdeal.Gen.shapeCasts_S32x2048x64_S2x16x2048x64 Cert.KernelIdeal.Gen.shapeCasts_S2x16x2048x2048_S32x2048x2048,
      (hagree c).1, (hagree c).2.1, (hagree c).2.2.1, (hagree c).2.2.2]
    rfl
  · refine (Cert.ReferenceIdeal.Read.val_main_v15_eq (F := Ideal) _ _ _).trans ?_
    rw [Cert.RefSide.ref_attn Cert.KernelIdeal.Gen.shapeCasts_S2x16x2048x64_S32x2048x64
      Cert.KernelIdeal.Gen.shapeCasts_S2x16x2048x2048_S32x2048x2048 Cert.KernelIdeal.Gen.shapeCasts_S32x2048x2048_S2x16x2048x2048,
      (hagree c).1, (hagree c).2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
